-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048x2048 : Shape := ⟨2, ![2048, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x8192x2048 .f32) (main_arg1 : FVec F S2048x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x8192x2048 : Shape := ⟨3, ![4, 8192, 2048]⟩
abbrev S2048x2048 : Shape := ⟨2, ![2048, 2048]⟩
abbrev S32768x2048 : Shape := ⟨2, ![32768, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S32768x2048, .f32⟩
  | .hbm, ⟨3, _⟩ => ⟨S2048x2048, .bf16⟩
  | .hbm, ⟨4, _⟩ => ⟨S2048x2048, .bf16⟩
  | .hbm, ⟨5, _⟩ => ⟨S32768x2048, .f32⟩
  | .hbm, ⟨6, _⟩ => ⟨S4x8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x2048_S32768x2048 : S4x8192x2048.ShapeCasts S32768x2048
  bitsLt_bf16_f32 : FTy.bits .bf16 < FTy.bits .f32
  transposes_S2048x2048_S2048x2048_1_0 : S2048x2048.Transposes [1, 0] S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S32768x2048_S4x8192x2048 : S32768x2048.ShapeCasts S4x8192x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S32768x2048.size a
  hwx0_2 : ∀ i : grid0.Coords, EltTy.bits .f32 = 32 ∨ (Rect.block (s := S32768x2048) S256x2048.size (cc0_transform_2 i) (hinb0_2 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048x2048 : Shape := ⟨2, ![2048, 2048]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S4x8192x2048, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x2048, .f32⟩
  | .hbm, ⟨14, _⟩ => ⟨S4x8192x2048, .f32⟩
  | .hbm, ⟨15, _⟩ => ⟨S4x8192x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x8192x2048, .f32⟩
  | .hbm, ⟨20, _⟩ => ⟨S4x8192x2048, .f32⟩
  | .hbm, ⟨21, _⟩ => ⟨S_, .f32⟩
  | .hbm, ⟨22, _⟩ => ⟨S4x8192x2048, .f32⟩
  | .hbm, ⟨23, _⟩ => ⟨S4x8192x2048, .f32⟩
  | .hbm, ⟨24, _⟩ => ⟨S4x8192x2048, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S_S4x8192x2048 : S_.BroadcastsInDim S4x8192x2048 (![] : Fin 0 → Fin S4x8192x2048.rank)
  dot_S4x8192x2048_S2048x2048_S4x8192x2048_2_1_01_0_n_n_wf : DotDims.WF S4x8192x2048 S2048x2048 S4x8192x2048 [2] [1] [0, 1] [0] [] []

variable [Facts₀]

def dot_S4x8192x2048_S2048x2048_S4x8192x2048_2_1_01_0_n_n : DotDims S4x8192x2048 S2048x2048 S4x8192x2048 where
  lhsContracting := [2]
  rhsContracting := [1]
  lhsNonContracting := [0, 1]
  rhsNonContracting := [0]
  lhsBatch := []
  rhsBatch := []
  wf := dot_S4x8192x2048_S2048x2048_S4x8192x2048_2_1_01_0_n_n_wf

class Facts : Prop extends Facts₀ where

variable [Facts]
-- ==== Proof.Quant.lean ====
/-
  Per-row symmetric 8-bit fake quantisation followed by a product with a matrix, as ONE function of the arrays.

  For a row v of 2048 extended reals let
      a(v)   = the largest of |v k| over the row, folded from −∞,
      s(v)   = 127 / max(ε, a(v))                                  (ε the f32 nearest 1e-5, the same word on both sides),
      q(v) k = min(127, max(−128, roundeven(v k · s(v)))) / s(v).
  The result at (b, t, o) is   ∑ k, q(x[b, t, ·]) k · W[o, k].
  One program computes it on the rows of x laid out as a [32768, 2048] matrix against the transposed matrix (`flat`);
  the other on the rank-3 array, and spells the quantised entry  x + (q − x)  (the straight-through form), which is
  q exactly when x is a real number: on the extended reals  r + (q − r) = q  for real r and ANY q (`add_sub_self_real`),
  while for r = ±∞ the left side is −∞.  That is the one place finiteness of the input is used.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-- The largest magnitude of a row, folded from −∞ (the word 0xFF800000). -/
def rowMax (v : Fin 2048 → EReal) : EReal :=
  (Finset.univ : Finset (Fin 2048)).fold max (Ideal.ofBits .f32 0xFF800000#32)
    (fun k => FloatOps.absf (F := Ideal) (φ := .f32) (v k))

/-- The row's scale: 127 over its largest magnitude, the latter kept at least ε. -/
def scale (v : Fin 2048 → EReal) : EReal :=
  Ideal.div (Ideal.ofBits .f32 0x42FE0000#32) (max (Ideal.ofBits .f32 0x3727C5AC#32) (rowMax v))

/-- Entry k of the quantised row: scaled, rounded to the nearest integer (ties to even), clamped to [−128, 127], scaled back. -/
def quant (v : Fin 2048 → EReal) (k : Fin 2048) : EReal :=
  Ideal.div (min (Ideal.ofBits .f32 0x42FE0000#32) (max (Ideal.ofBits .f32 0xC3000000#32)
    (Ideal.liftRound Ideal.roundHalfEven (v k * scale v)))) (scale v)

/-- The flat form: row r of X quantised, against column o of the transposed matrix Wt. -/
def flat (X : (⟨2, ![32768, 2048]⟩ : Shape).Idx → EReal) (Wt : (⟨2, ![2048, 2048]⟩ : Shape).Idx → EReal)
    (r : Fin 32768) (o : Fin 2048) : EReal :=
  ∑ k : Fin 2048, quant (fun d => X (ix2 r d)) k * Wt (ix2 k o)

/-- The rank-3 form: row (b, t) of x quantised, against row o of W. -/
def G (x : (⟨3, ![4, 8192, 2048]⟩ : Shape).Idx → EReal) (W : (⟨2, ![2048, 2048]⟩ : Shape).Idx → EReal)
    (b : Fin 4) (t : Fin 8192) (o : Fin 2048) : EReal :=
  ∑ k : Fin 2048, quant (fun d => x (ix3 b t d)) k * W (ix2 o k)

/-- Adding a real number and taking it away again changes nothing, whatever the other term — infinite or not. -/
theorem add_sub_self_real (r : ℝ) (q : EReal) : (r : EReal) + (q - (r : EReal)) = q := by
  rw [sub_eq_add_neg, add_left_comm, ← EReal.coe_neg, ← EReal.coe_add, add_neg_cancel, EReal.coe_zero, add_zero]

/-- The flat form on the re-laid arrays is the rank-3 form: if X's row b·8192 + t is x's row (b, t) and Wt is W transposed. -/
theorem flat_eq_G (x : (⟨3, ![4, 8192, 2048]⟩ : Shape).Idx → EReal) (W : (⟨2, ![2048, 2048]⟩ : Shape).Idx → EReal)
    (X : (⟨2, ![32768, 2048]⟩ : Shape).Idx → EReal) (Wt : (⟨2, ![2048, 2048]⟩ : Shape).Idx → EReal)
    (b : Fin 4) (t : Fin 8192) (o : Fin 2048) (r : Fin 32768)
    (hX : ∀ d : Fin 2048, X (ix2 r d) = x (ix3 b t d)) (hW : ∀ k : Fin 2048, Wt (ix2 k o) = W (ix2 o k)) :
    flat X Wt r o = G x W b t o := by
  unfold flat G
  have hrow : (fun d => X (ix2 r d)) = (fun d => x (ix3 b t d)) := funext hX
  rw [hrow]
  exact Finset.sum_congr rfl fun k _ => by rw [hW]

end Cert.Quant

end
-- ==== Proof.RefValue.lean ====
/-
  The reference's result, entry by entry, is the rank-3 function of Quant.lean — where the first input is finite.

  The reference computes, for each row (b, u) of x: the row's largest magnitude (a reduction by max over the last axis from
  −∞: at (b, u) the fold of max over the 2048 entries of the row), the scale 127 / max(ε, that), the entry scaled, rounded to
  even, clamped and scaled back — the quantised entry q — and then the straight-through form x + (q − x); the result is the
  contraction of that array's last axis with W's last axis.  Each stage is read at an index; the host's quotient, rounding
  and magnitude are the same functions on the extended reals as the vector unit's; and x + (q − x) = q because x is a real
  number (`Quant.add_sub_self_real`) — the one use of the precondition.
-/
import proofs.«171513_j24180665876586_1_alg».proof.Proof.RefRead
import proofs.«171513_j24180665876586_1_alg».proof.Proof.Quant
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx Cert.Quant

/-! ## The row maximum -/

/-- Row (b, u)'s index with the entry k put back on the reduced axis is (b, u, k). -/
theorem lift_row (h : S4x8192x2048.Reduces [2] S4x8192) (b : Fin 4) (u : Fin 8192) (k : Fin 2048) :
    h.lift (ix2 b u) k = ix3 b u k := by
  funext a; apply Fin.ext
  match a with
  | ⟨0, _⟩ => rfl
  | ⟨1, _⟩ => rfl
  | ⟨2, _⟩ => rfl

/-- A fold of the ideal maximum is a fold of max on the extended reals, over functions that agree. -/
theorem fold_max_congr (a : EReal) (f g : Fin 2048 → EReal) (h : ∀ k, f k = g k) :
    (Finset.univ : Finset (Fin 2048)).fold (FloatOps.maximumf (F := Ideal) (φ := .f32)) a f
      = (Finset.univ : Finset (Fin 2048)).fold max a g := by
  rw [show f = g from funext h]; rfl

/-- The host's reduction by max over the last axis, at (b, u), is the fold of max over that row's entries. -/
theorem hostmax_fold (y : FVec Ideal S4x8192x2048 .f32) (init : FVec Ideal S_ .f32) (h' : S4x8192x2048.ReducesTo [2] S4x8192)
    (h : S4x8192x2048.Reduces [2] S4x8192) (hu : 0 < S_.numel) (j : S4x8192.Idx) :
    Host.reduce (FloatOps.maximumf (F := Ideal) (φ := .f32)) y init h' hu j
      = (Finset.univ : Finset (Fin 2048)).fold (FloatOps.maximumf (F := Ideal) (φ := .f32)) (init (Shape.Idx.first hu)) (y ∘ h.lift j) :=
  Host.reduce_eq_fold_single (FloatOps.maximumf (F := Ideal) (φ := .f32)) y init h' h hu j

/-- The max-reduction stage at (b, u) is row (b, u)'s largest magnitude. -/
theorem rowmax_apply (x : FVec Ideal S4x8192x2048 .f32) (b : Fin 4) (u : Fin 8192) :
    val_main_v1 (F := Ideal) x (ix2 b u) = rowMax (fun d => x (ix3 b u d)) := by
  have h : S4x8192x2048.Reduces [2] S4x8192 := by decide
  unfold val_main_v1
  refine (hostmax_fold (val_main_v0 (F := Ideal) x) (val_main_cst (F := Ideal)) reducesTo_S4x8192x2048_S4x8192_d2 h h_S_ (ix2 b u)).trans ?_
  rw [val_main_cst_apply, Ideal.ofBits_def]
  unfold rowMax
  exact fold_max_congr _ _ _ fun k => congrArg (fun i => FloatOps.absf (F := Ideal) (φ := .f32) (x i)) (lift_row h b u k)

/-! ## The scale and one entry -/

theorem idx_v2 (b : Fin 4) (u : Fin 8192) : idx_main_v2 (ix3 b u (0 : Fin 1)) = ix2 b u :=
  funext fun a => Fin.ext (by match a with | ⟨0, _⟩ => rfl | ⟨1, _⟩ => rfl)
theorem idx_v6 (b : Fin 4) (u : Fin 8192) (k : Fin 2048) : idx_main_v6 (ix3 b u k) = ix3 b u (0 : Fin 1) :=
  funext fun a => Fin.ext (by match a with | ⟨0, _⟩ => rfl | ⟨1, _⟩ => rfl | ⟨2, _⟩ => rfl)
theorem idx_v10 (b : Fin 4) (u : Fin 8192) (k : Fin 2048) : idx_main_v10 (ix3 b u k) = ix3 b u (0 : Fin 1) :=
  funext fun a => Fin.ext (by match a with | ⟨0, _⟩ => rfl | ⟨1, _⟩ => rfl | ⟨2, _⟩ => rfl)

/-- The scale stage at row (b, u). -/
theorem scale_apply (x : FVec Ideal S4x8192x2048 .f32) (b : Fin 4) (u : Fin 8192) :
    val_main_v5 (F := Ideal) x (ix3 b u (0 : Fin 1)) = scale (fun d => x (ix3 b u d)) := by
  rw [val_main_v5_apply, val_main_v4_apply, val_main_cst_1_apply, val_main_v3_apply, val_main_call0_v1_apply,
    val_main_call0_v0_apply, val_main_cst_0_apply, val_main_v2_apply, idx_v2, rowmax_apply]
  simp only [Ideal.hostDivf_def, Ideal.maximumf_def, Ideal.ofBits_def]
  unfold scale
  rfl

/-- The straight-through stage at (b, u, k): the entry plus (its quantisation minus the entry). -/
theorem ste_apply (x : FVec Ideal S4x8192x2048 .f32) (b : Fin 4) (u : Fin 8192) (k : Fin 2048) :
    val_main_v13 (F := Ideal) x (ix3 b u k)
      = x (ix3 b u k) + (quant (fun d => x (ix3 b u d)) k - x (ix3 b u k)) := by
  rw [val_main_v13_apply, val_main_v12_apply, val_main_v11_apply, val_main_v9_apply, val_main_call2_v4_apply,
    val_main_call2_v3_apply, val_main_cst_3_apply, val_main_call2_v2_apply, val_main_call2_v1_apply, val_main_call2_v0_apply,
    val_main_cst_2_apply, val_main_v8_apply, val_main_v7_apply, val_main_v6_apply, idx_v6, val_main_v10_apply, idx_v10,
    scale_apply]
  simp only [Ideal.addf_def, Ideal.subf_def, Ideal.hostDivf_def, Ideal.minimumf_def, Ideal.maximumf_def,
    Ideal.hostUnary_roundeven_def, Ideal.mulf_def, Ideal.ofBits_def]
  unfold quant
  rfl

/-! ## The result -/

/-- THE REFERENCE'S RESULT at (b, u, o), for an x whose entries are real numbers. -/
theorem result_apply (x : FVec Ideal S4x8192x2048 .f32) (W : FVec Ideal S2048x2048 .f32)
    (hfin : ∀ i, ∃ r : ℝ, x i = (r : EReal)) (b : Fin 4) (u : Fin 8192) (o : Fin 2048) :
    val_main_v14 (F := Ideal) x W (ix3 b u o) = G x W b u o := by
  rw [val_main_v14_apply]
  unfold G
  refine Finset.sum_congr rfl fun k _ => ?_
  have el : lidx_main_v14 (ix3 b u o) k = ix3 b u k :=
    funext fun a => Fin.ext (by match a with | ⟨0, _⟩ => rfl | ⟨1, _⟩ => rfl | ⟨2, _⟩ => rfl)
  have er : ridx_main_v14 (ix3 b u o) k = ix2 o k :=
    funext fun a => Fin.ext (by match a with | ⟨0, _⟩ => rfl | ⟨1, _⟩ => rfl)
  rw [el, er, ste_apply]
  obtain ⟨r, hr⟩ := hfin (ix3 b u k)
  rw [hr, add_sub_self_real]

/-- Every weakly fair execution of the reference terminates with its result the rank-3 function of its arguments, the
    arguments unchanged — from a memory whose first argument holds real numbers. -/
theorem run (m : (ℓ : Loc nD τ sig) → Buf (Elt Ideal) ℓ) (ρ : Dev nD → PrngReg)
    (hfin : ∀ (c : Dev nD) (i : S4x8192x2048.Idx), ∃ r : ℝ, m ((c.tc : Thread nD τ).loc main_arg0) i = (r : EReal)) :
    θ_run defs (onTc (τ := τ) (main (F := Ideal))) ⟨m, fun _ => 0, ρ⟩ fun r => ∀ c : Dev nD,
      r.2.mem ((c.tc : Thread nD τ).loc main_v14)
        = (fun i => G (m ((c.tc : Thread nD τ).loc main_arg0)) (m ((c.tc : Thread nD τ).loc main_arg1)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1.trans (val_main_v14_eq _ _)).trans (funext fun i => by
        obtain ⟨b, u, o, rfl⟩ : ∃ (b : Fin 4) (u : Fin 8192) (o : Fin 2048), i = ix3 b u o := ⟨i 0, i 1, i 2, eq_ix3 i⟩
        exact result_apply _ _ (hfin c) b u o),
      (h c).2.1, (h c).2.2⟩)
    (Cert.ReferenceIdeal.ValueP.run (F := Ideal) m ρ)

end Cert.ReferenceIdeal.RefValue

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  What the kernel's body stores, read entry by entry.

  The body loads a block x of 256 rows and the whole transposed matrix w, and stores their product after quantising each
  row of x.  At entry (p, o) of the stored block that is
      ∑ k, quant (row p of x) k · w[k, o]
  with `quant` the row-wise fake quantisation of Quant.lean: the row's largest magnitude is a lane maximum read at row p
  (a fold of max over the row's 2048 entries, from −∞), recast as a column and broadcast back over the row, so every entry
  of row p sees the same scale; the product with w is a matrix product into a zero accumulator, a plain sum over the one
  contracted axis.  A change of float format is the identity on the extended reals, and so is a cast to the same shape.
-/
import proofs.«171513_j24180665876586_1_alg».proof.Proof.Gen.KernelIdeal.Skeleton
import proofs.«171513_j24180665876586_1_alg».proof.Proof.Quant
import proofs.«171513_j24180665876586_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Quant Cert.LibKeepdims

/-- The body's matrix product: rows of the left operand against columns of the right, one contracted axis of extent 2048. -/
abbrev D : DotDims S256x2048 S2048x2048 S256x2048 := dot_S256x2048_S2048x2048_S256x2048_1_0_0_1_n_n

/-! ## The row maximum -/

/-- Row p's index with the column k put back on the reduced axis is (p, k). -/
theorem lift_row (h : S256x2048.Reduces [1] S256) (p : Fin 256) (k : Fin 2048) : h.lift (ix1 p) k = ix2 p k := by
  funext a; apply Fin.ext
  match a with
  | ⟨0, _⟩ => rfl
  | ⟨1, _⟩ => rfl

/-- The lane maximum of the block's magnitudes, at row p, is that row's largest magnitude. -/
theorem rowmax_apply (x : FVec Ideal S256x2048 .f32) (h : S256x2048.Reduces [1] S256) (hφ : FKind.Formats .f32)
    (hacc : (0xFF800000#32 : BitVec 32) = FKind.maximumf.neutral .f32 hφ) (p : Fin 256) :
    multiReduction .maximumf [1] S256 (absf x) 0xFF800000#32 h hφ hacc (ix1 p) = rowMax (fun d => x (ix2 p d)) := by
  refine (Ideal.multiReduction_maximumf_single (absf x) 0xFF800000#32 h hφ hacc (ix1 p)).trans ?_
  unfold rowMax
  refine congrArg (fun f => (Finset.univ : Finset (Fin 2048)).fold max (Ideal.ofBits .f32 0xFF800000#32) f)
    (funext fun (k : Fin 2048) => ?_)
  exact congrArg (fun i => FloatOps.absf (F := Ideal) (φ := .f32) (x i)) (lift_row h p k)

/-! ## The scale, broadcast over the row -/

/-- A column of 256 broadcast over 2048 columns reads, at (p, c), the column at p. -/
theorem col_bcast (v : FVec Ideal S256x1 .f32) (hb : S256x1.Broadcasts S256x2048) (p : Fin 256) (c : Fin 2048) :
    broadcastTo S256x2048 v hb (ix2 p c) = v (ix2 p (0 : Fin 1)) :=
  broadcastTo_a1_ab_apply (a := 256) (b := 2048) v hb p c

/-- A vector of 256 recast as a column reads, at (p, 0), the vector at p. -/
theorem col_cast (v : FVec Ideal S256 .f32) (hc : S256.ShapeCasts S256x1) (p : Fin 256) :
    shapeCast S256x1 v hc (ix2 p (0 : Fin 1)) = v (ix1 p) :=
  shapeCast_a_a1_apply (a := 256) v hc p 0

/-- A scalar constant of the body is the extended real its word denotes (stated for any word: nothing is evaluated). -/
theorem scalar_word (b : BitVec 32) : Scalar.ofBits (F := Ideal) .f32 b = Ideal.ofBits .f32 b := rfl

/-- A splat over a maximum with a splat, entry by entry: the operations are pointwise. -/
theorem scale_term (a e : EReal) (v : FVec Ideal S256x1 .f32) (j : S256x1.Idx) :
    divf (broadcast S256x1 a) (maximumf (broadcast S256x1 e) v) j = Ideal.div a (max e (v j)) := rfl

/-- The scale column broadcast back over the block reads, at every entry of row p, row p's scale. -/
theorem scale_apply (x : FVec Ideal S256x2048 .f32) (h : S256x2048.Reduces [1] S256) (hφ : FKind.Formats .f32)
    (hacc : (0xFF800000#32 : BitVec 32) = FKind.maximumf.neutral .f32 hφ) (hc : S256.ShapeCasts S256x1)
    (hb : S256x1.Broadcasts S256x2048) (p : Fin 256) (c : Fin 2048) :
    broadcastTo S256x2048 (divf (broadcast S256x1 (Scalar.ofBits (F := Ideal) .f32 0x42FE0000#32))
        (maximumf (broadcast S256x1 (Scalar.ofBits (F := Ideal) .f32 0x3727C5AC#32))
          (shapeCast S256x1 (multiReduction .maximumf [1] S256 (absf x) 0xFF800000#32 h hφ hacc) hc))) hb (ix2 p c)
      = scale (fun d => x (ix2 p d)) := by
  refine (col_bcast _ hb p c).trans ?_
  refine (scale_term _ _ _ _).trans ?_
  rw [col_cast _ hc p, rowmax_apply x h hφ hacc p, scalar_word, scalar_word]
  unfold scale
  rfl

/-! ## One quantised entry -/

/-- Scaling, rounding, clamping and scaling back are pointwise, and the change of format is the identity. -/
theorem quant_term (hi lo : EReal) (x S : FVec Ideal S256x2048 .f32) (hlt : FTy.bits .bf16 < FTy.bits .f32) (j : S256x2048.Idx) :
    truncf .bf16 (divf (minimumf (broadcast S256x2048 hi) (maximumf (broadcast S256x2048 lo) (roundeven (mulf x S)))) S) hlt j
      = Ideal.div (min hi (max lo (Ideal.liftRound Ideal.roundHalfEven (x j * S j)))) (S j) := rfl

/-- Scaled, rounded, clamped and scaled back: entry (p, k), given that the scale vector S holds row p's scale there. -/
theorem quant_apply (x S : FVec Ideal S256x2048 .f32) (hlt : FTy.bits .bf16 < FTy.bits .f32) (p : Fin 256) (k : Fin 2048)
    (hS : S (ix2 p k) = scale (fun d => x (ix2 p d))) :
    truncf .bf16 (divf (minimumf (broadcast S256x2048 (Scalar.ofBits (F := Ideal) .f32 0x42FE0000#32))
        (maximumf (broadcast S256x2048 (Scalar.ofBits (F := Ideal) .f32 0xC3000000#32)) (roundeven (mulf x S)))) S) hlt (ix2 p k)
      = quant (fun d => x (ix2 p d)) k := by
  refine (quant_term _ _ x S hlt (ix2 p k)).trans ?_
  rw [hS, scalar_word, scalar_word]
  unfold quant
  rfl

/-! ## The matrix product at an entry -/

theorem lhs_0 (i : S256x2048.Idx) (q : D.contr.Idx) : (D.lhsIdx i q 0).val = (i 0).val := by
  unfold DotDims.lhsIdx
  rw [dif_neg (show ¬(0 : Fin S256x2048.rank) ∈ D.lhsBatch by decide), dif_pos (show (0 : Fin S256x2048.rank) ∈ D.lhsNonContracting by decide)]
  rfl
theorem lhs_1 (i : S256x2048.Idx) (q : D.contr.Idx) : (D.lhsIdx i q 1).val = (q ⟨0, by decide⟩).val :=
  D.lhsIdx_val_of_single rfl i q
theorem rhs_0 (i : S256x2048.Idx) (q : D.contr.Idx) : (D.rhsIdx i q 0).val = (q ⟨0, by decide⟩).val :=
  D.rhsIdx_val_of_single rfl i q
theorem rhs_1 (i : S256x2048.Idx) (q : D.contr.Idx) : (D.rhsIdx i q 1).val = (i 1).val := by
  unfold DotDims.rhsIdx
  rw [dif_neg (show ¬(1 : Fin S2048x2048.rank) ∈ D.rhsBatch by decide), dif_pos (show (1 : Fin S2048x2048.rank) ∈ D.rhsNonContracting by decide)]
  rfl

/-- The product into a zero accumulator, at (p, o): row p of the left operand against column o of the right. -/
theorem matmul_apply_ix (l : FVec Ideal S256x2048 .bf16) (r : FVec Ideal S2048x2048 .bf16) (p : Fin 256) (o : Fin 2048) :
    matmul D none l r (constant (F := Ideal) S256x2048 .f32 0x00000000#32) (ix2 p o) = ∑ k : Fin 2048, l (ix2 p k) * r (ix2 k o) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p o) ((contrEquiv1 D 2048 rfl rfl).symm k) = ix2 p k := funext fun a => Fin.ext (by
    match a with
    | ⟨0, _⟩ => exact lhs_0 _ _
    | ⟨1, _⟩ => exact (lhs_1 _ _).trans hk)
  have er : D.rhsIdx (ix2 p o) ((contrEquiv1 D 2048 rfl rfl).symm k) = ix2 k o := funext fun a => Fin.ext (by
    match a with
    | ⟨0, _⟩ => exact (rhs_0 _ _).trans hk
    | ⟨1, _⟩ => exact rhs_1 _ _)
  rw [el, er]

/-! ## The stored value -/

/-- THE STORED BLOCK at (p, o): row p of the loaded block, quantised, against column o of the loaded matrix. -/
theorem pay_apply (x0 : FVec Ideal S256x2048 .f32) (x1 : FVec Ideal S2048x2048 .bf16) (p : Fin 256) (o : Fin 2048) :
    k0_pay1 (F := Ideal) x0 x1 (ix2 p o) = ∑ k : Fin 2048, quant (fun d => x0 (ix2 p d)) k * x1 (ix2 k o) := by
  unfold k0_pay1
  dsimp only
  simp only [shapeCast_self]
  refine (matmul_apply_ix _ _ p o).trans ?_
  refine Finset.sum_congr rfl fun k _ => ?_
  exact congrArg (· * x1 (ix2 k o)) (quant_apply x0 _ _ p k (scale_apply x0 _ _ _ _ _ p k))

end Cert.KernelIdeal.Payload

end
-- ==== Proof.KernelBlocks.lean ====
/-
  The array the kernel's region leaves, as one function of the arrays the region finds.

  The grid has 128 points.  Point t stages rows 256·t … 256·t + 255 of the flat input X (all 2048 columns), the whole
  transposed matrix Wt (the same block at every point), and writes back rows 256·t … 256·t + 255 of the output.  The body's
  stored block at (p, o) is row p of its input block quantised against column o of Wt (Payload.lean), and row p of
  point t's input block is row 256·t + p of X: so point t writes back block t of the ONE function
      (r, o) ↦ ∑ k, quant (row r of X) k · Wt[k, o].
  The 128 blocks tile the 32768 rows — row r lies in block r / 256 — so after the region the whole array is that function.
-/
import proofs.«171513_j24180665876586_1_alg».proof.Proof.Gen.KernelIdeal.Frame
import proofs.«171513_j24180665876586_1_alg».proof.Proof.Payload
import proofs.«171513_j24180665876586_1_alg».proof.Proof.Quant
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Quant
open Idealize.ShloMosaic.Pipeline (Dat)

variable (m : (ℓ : Loc nD τ sig) → Buf (Elt Ideal) ℓ) (ρ : Dev nD → PrngReg)

/-- The region's output array as a function of the flat input and the transposed matrix. -/
def out (X : S32768x2048.Idx → EReal) (Wt : S2048x2048.Idx → EReal) : S32768x2048.Idx → EReal :=
  fun i => flat X Wt (i 0) (i 1)

/-- One point, over plain vectors: if row p of the loaded block is row r of X and column o of the loaded matrix is
    column o' of Wt, the stored entry (p, o) is entry (r, o') of the whole-array function. -/
theorem point_eq (X : S32768x2048.Idx → EReal) (Wt : S2048x2048.Idx → EReal)
    (x0 : FVec Ideal S256x2048 .f32) (x1 : FVec Ideal S2048x2048 .bf16) (p : Fin 256) (o : Fin 2048) (r : Fin 32768) (o' : Fin 2048)
    (h0 : ∀ d : Fin 2048, x0 (ix2 p d) = X (ix2 r d)) (h1 : ∀ k : Fin 2048, x1 (ix2 k o) = Wt (ix2 k o')) :
    k0_pay1 (F := Ideal) x0 x1 (ix2 p o) = flat X Wt r o' := by
  refine (Payload.pay_apply x0 x1 p o).trans ?_
  unfold flat
  rw [show (fun d => x0 (ix2 p d)) = (fun d => X (ix2 r d)) from funext h0]
  exact Finset.sum_congr rfl fun k _ => by rw [h1]

theorem hz : (![0, 0] : Fin 2 → Nat) = fun _ => 0 := funext fun a => by fin_cases a <;> rfl

/-- The printed index maps over the grid: the input block moves with the output block along the rows, the matrix's block
    never moves, and the output's block index along the rows is the point itself. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of rows is some point's. -/
theorem idx_onto : ∀ q : Fin 128, ∃ t : Fin cfg0.N, win0_2.index t = ![q.val, 0] :=
  (by decide +kernel : ∀ q : Fin 128, ∃ t : Fin grid0.N, win0_2.index t = ![q.val, 0])

/-- WHAT POINT t WRITES BACK is block t of `out` of the arrays the region finds. -/
theorem flushed_eq (c : Dev nD) (t : Fin cfg0.N) :
    (dats m 0 c).flushed 2 t = ((cfg0.win 2).blk t).view.read (Elt Ideal) (out (V m c main_v0) (V m c main_v2)) := by
  show (cfg0.win 2).cut (grid0.coords t) ((dats m 0 c).after 2 t) = _
  rw [after0_2]
  unfold out0_2
  rw [View.canon_unit_zero hz]
  simp only [View.ld_unit_zero (S := S256x2048) hz, View.ld_unit_zero (S := S2048x2048) hz]
  obtain ⟨e0, e1, e2, e3, e4⟩ := idx_facts t
  funext j
  obtain ⟨p, o, rfl⟩ : ∃ (p : Fin 256) (o : Fin 2048), j = ix2 p o := ⟨j 0, j 1, eq_ix2 j⟩
  show k0_pay1 (iblk m c 0 t) (iblk m c 1 t) (ix2 p o)
    = flat (V m c main_v0) (V m c main_v2) ((((cfg0.win 2).blk t).view.emb (ix2 p o)) 0) ((((cfg0.win 2).blk t).view.emb (ix2 p o)) 1)
  refine point_eq _ _ _ _ p o _ _ (fun d => ?_) (fun k => ?_)
  · show V m c main_v0 (((cfg0.win 0).blk t).view.emb (ix2 p d))
      = V m c main_v0 (ix2 ((((cfg0.win 2).blk t).view.emb (ix2 p o)) 0) d)
    refine congrArg (V m c main_v0) (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 2048 + 1 * d.val = d.val; omega
  · show V m c main_v2 (((cfg0.win 1).blk t).view.emb (ix2 k o))
      = V m c main_v2 (ix2 k ((((cfg0.win 2).blk t).view.emb (ix2 p o)) 1))
    refine congrArg (V m c main_v2) (funext fun a => Fin.ext ?_)
    match a with
    | ⟨0, _⟩ => show win0_1.index t (0 : Fin 2) * 2048 + 1 * k.val = k.val; omega
    | ⟨1, _⟩ => show win0_1.index t (1 : Fin 2) * 2048 + 1 * o.val = win0_2.index t (1 : Fin 2) * 2048 + 1 * o.val; omega

/-- An index of the output array is in point t's block iff each coordinate is in the block's range on its axis. -/
theorem mem_blk (t : Fin cfg0.N) (i : S32768x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v3).slice (win0_2.rect t)).set ↔ _
  rw [View.set_slice_whole, Rect.mem_set_unit]
  exact Iff.rfl

/-- THE BLOCKS TILE THE ARRAY: row r is in the block of point r / 256. -/
theorem cover (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- THE ARRAY after the region: `out` of the arrays the region finds. -/
theorem final (c : Dev nD) : (dats m 0 c).arrAt 2 cfg0.N = out (V m c main_v0) (V m c main_v2) :=
  (dats m 0 c).arrAt_eq_of_cover 2 _ (fun t _ => flushed_eq m c t) cover

/-! ## The host operations around the region -/

/-- The flat input the region finds is the first argument recast: rows (b, u) laid out one after the other. -/
theorem V_v0 (c : Dev nD) : (V m c main_v0 : S32768x2048.Idx → EReal)
    = shapeCast S32768x2048 (m ((c : Thread nD τ).loc main_arg0)) shapeCasts_S4x8192x2048_S32768x2048 := by
  show StableHlo.after hostOps0 (fun b => m (c, b)) (Proc.devRef .tc main_v0) = _
  after_results <;> rfl

/-- The matrix the region finds is the second argument transposed (the change of format is the identity). -/
theorem V_v2 (c : Dev nD) : (V m c main_v2 : S2048x2048.Idx → EReal)
    = transpose S2048x2048 [1, 0] (truncf (F := Ideal) .bf16 (m ((c : Thread nD τ).loc main_arg1)) bitsLt_bf16_f32) transposes_S2048x2048_S2048x2048_1_0 := by
  show StableHlo.after hostOps0 (fun b => m (c, b)) (Proc.devRef .tc main_v2) = _
  after_results <;> rfl

/-- The program's result is the region's output array recast to rank 3. -/
theorem tail_v4 (c : Dev nD) : (Pipeline.afterTail₀ cfgs (dats m) 0 (V0 m) [hostOps1] c main_v4 : S4x8192x2048.Idx → EReal)
    = shapeCast S4x8192x2048 (out (V m c main_v0) (V m c main_v2)) shapeCasts_S32768x2048_S4x8192x2048 := by
  have e := (Pipeline.withArrays_arr spec0 launch0.win.arr_inj c (V0 m c) (fun w => (dats m 0 c).arrAt w cfg0.N) 2).trans (final m c)
  unfold Pipeline.afterTail₀
  show StableHlo.after hostOps1 _ (Proc.devRef .tc main_v4) = _
  after_results
  rw [e]
  rfl

/-- Row b·8192 + u of the flat input is row (b, u) of the argument. -/
theorem V_v0_apply (c : Dev nD) (b : Fin 4) (u : Fin 8192) (d : Fin 2048) (r : Fin 32768) (hr : r.val = b.val * 8192 + u.val) :
    (V m c main_v0 : S32768x2048.Idx → EReal) (ix2 r d) = m ((c : Thread nD τ).loc main_arg0) (ix3 b u d) := by
  rw [V_v0]
  refine shapeCast_apply _ _ (ix2 r d) (ix3 b u d) ?_
  rw [Shape.rowMajor_val_two, Shape.rowMajor_val_three]
  show (b.val * 8192 + u.val) * 2048 + d.val = r.val * 2048 + d.val
  rw [hr]

/-- Entry (k, o) of the matrix the region finds is entry (o, k) of the argument. -/
theorem V_v2_apply (c : Dev nD) (k o : Fin 2048) :
    (V m c main_v2 : S2048x2048.Idx → EReal) (ix2 k o) = m ((c : Thread nD τ).loc main_arg1) (ix2 o k) := by
  rw [V_v2]
  refine (transpose_apply [1, 0] _ transposes_S2048x2048_S2048x2048_1_0 (ix2 k o) (ix2 o k) fun a => ?_).trans rfl
  match a with
  | ⟨0, _⟩ => rfl
  | ⟨1, _⟩ => rfl

/-- THE KERNEL'S RESULT, entry by entry: the rank-3 function of the two arguments. -/
theorem result_apply (c : Dev nD) (b : Fin 4) (u : Fin 8192) (o : Fin 2048) :
    (Pipeline.afterTail₀ cfgs (dats m) 0 (V0 m) [hostOps1] c main_v4 : S4x8192x2048.Idx → EReal) (ix3 b u o)
      = G (m ((c : Thread nD τ).loc main_arg0)) (m ((c : Thread nD τ).loc main_arg1)) b u o := by
  have hlt : b.val * 8192 + u.val < 32768 := by have := b.isLt; have := u.isLt; omega
  rw [tail_v4]
  refine (shapeCast_apply _ shapeCasts_S32768x2048_S4x8192x2048 (ix3 b u o) (ix2 (⟨b.val * 8192 + u.val, hlt⟩ : Fin 32768) o) ?_).trans ?_
  · rw [Shape.rowMajor_val_two, Shape.rowMajor_val_three]
    rfl
  · exact flat_eq_G _ _ _ _ b u o ⟨b.val * 8192 + u.val, hlt⟩ (fun d => V_v0_apply m c b u d _ rfl) (fun k => V_v2_apply m c k o)

/-! ## The run -/

/-- Every weakly fair execution of the program terminates with its result the rank-3 function of its arguments, the
    arguments unchanged. -/
theorem run : θ_run defs (onTc (τ := τ) (main (F := Ideal))) ⟨m, fun _ => 0, ρ⟩ fun r => ∀ c : Dev nD,
      r.2.mem ((c : Thread nD τ).loc main_v4)
        = (fun i => G (m ((c : Thread nD τ).loc main_arg0)) (m ((c : Thread nD τ).loc main_arg1)) (i 0) (i 1) (i 2))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans (funext fun i => by
        obtain ⟨b, u, o, rfl⟩ : ∃ (b : Fin 4) (u : Fin 8192) (o : Fin 2048), i = ix3 b u o := ⟨i 0, i 1, i 2, eq_ix3 i⟩
        exact result_apply m c b u o),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Blocks

end
-- ==== Proof.Finite.lean ====
/-
  What the precondition gives: every entry of the first input is a real number.

  The precondition is the conjunction of two "all entries satisfy |v| < +∞" tests, one per input, each an and-reduction
  over every axis from the constant 1.  If the conjunction is 1 then so is the first test, hence every one of its
  entries' comparison bits; the bit at an entry says max(v, −v) < ⊤ on the extended reals (the word 0x7F800000 denotes ⊤);
  and an extended real whose magnitude is below ⊤ is neither ⊤ nor ⊥, that is, a real number.
-/
import proofs.«171513_j24180665876586_1_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The f32 word 0x7F800000 is +∞. -/
theorem inf_word : Ideal.ofBits .f32 0x7F800000#32 = (⊤ : EReal) := by simp [Ideal.ofBits, Ideal.ieee]

/-- A one-bit word made from a truth value is 1 exactly when the value is true. -/
theorem bit_one (b : Bool) : BitVec.ofBool b = 1#1 ↔ b = true := by cases b <;> decide

/-- An extended real whose magnitude is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

variable [Cert.Pre_finite_inputs.Facts]

/-- Under the precondition every entry of the first input is a real number. -/
theorem real_of_pre (x0 : FVec Ideal S4x8192x2048 .f32) (x1 : FVec Ideal S2048x2048 .f32)
    (h : Cert.Pre_finite_inputs.fn (F := Ideal) x0 x1 = fun _ => 1#1) (i : S4x8192x2048.Idx) :
    ∃ r : ℝ, x0 i = (r : EReal) := by
  have h0 := congrFun h ix0
  dsimp only [Cert.Pre_finite_inputs.fn] at h0
  obtain ⟨ha, -⟩ := IntOp.andi_eq_one.1 h0
  have hi := Host.reduce_andi_all _ _ _ _ _ ha i
  have hb : broadcastInDim S4x8192x2048 ![] Facts.bcast_S_S4x8192x2048 (constant (F := Ideal) S_ .f32 0x7F800000#32) i
      = Ideal.ofBits .f32 0x7F800000#32 :=
    broadcastInDim_apply _ Facts.bcast_S_S4x8192x2048 _ i ix0 (fun a => a.elim0)
  have hc : Ideal.cmp .olt (max (x0 i) (-(x0 i)))
      (broadcastInDim S4x8192x2048 ![] Facts.bcast_S_S4x8192x2048 (constant (F := Ideal) S_ .f32 0x7F800000#32) i) = 1#1 := hi
  rw [hb, inf_word] at hc
  have hd : decide (max (x0 i) (-(x0 i)) < (⊤ : EReal)) = true := (bit_one _).1 hc
  have hlt : max (x0 i) (-(x0 i)) < ⊤ := of_decide_eq_true hd
  exact real_of_abs_lt_top _ hlt

end Cert.Finite

end
-- ==== Proof.lean ====
/-
  A linear layer on per-row fake-quantised activations: the kernel against its jnp reference, on the extended reals.

  Both programs take x : f32[4, 8192, 2048] and W : f32[2048, 2048].  For each row v = x[b, u, ·] let a(v) be its largest
  magnitude, s(v) = 127 / max(ε, a(v)), and q(v) k = min(127, max(−128, roundeven(v k · s(v)))) / s(v).  The kernel lays the
  rows out as a [32768, 2048] matrix, quantises each block of 256 rows and multiplies it by W transposed, writes the blocks
  back and recasts the result to rank 3; entry (b, u, o) of its result is  ∑ k, q(x[b, u, ·]) k · W[o, k]  (KernelBlocks.lean,
  over Payload.lean).  The reference forms the straight-through array  x + (q − x)  and contracts its last axis with W's;
  where x holds real numbers  x + (q − x) = q  and its entry (b, u, o) is the same sum (RefValue.lean).  The precondition says
  every input entry is finite (Finite.lean), and the two programs are run from memories that agree on the inputs: so both
  end, with equal results, entry by entry.  A change of float format is the identity on the extended reals, the matrix
  unit's product into a zero accumulator and the host's contraction are the same sum, and the order of a sum does not
  matter there; the ideal pass rewrote nothing, so the kernel's idealization is its own text read on the extended reals.
-/
import proofs.«171513_j24180665876586_1_alg».proof.Defs
import proofs.«171513_j24180665876586_1_alg».proof.Proof.Gen.Kernel
import proofs.«171513_j24180665876586_1_alg».proof.Proof.Gen.Kernel.Skeleton
import proofs.«171513_j24180665876586_1_alg».proof.Proof.Gen.Kernel.Launch
import proofs.«171513_j24180665876586_1_alg».proof.Proof.Gen.Kernel.Points
import proofs.«171513_j24180665876586_1_alg».proof.Proof.Gen.Kernel.Frame
import proofs.«171513_j24180665876586_1_alg».proof.Proof.Gen.KernelIdeal
import proofs.«171513_j24180665876586_1_alg».proof.Proof.Gen.KernelIdeal.Skeleton
import proofs.«171513_j24180665876586_1_alg».proof.Proof.Gen.KernelIdeal.Launch
import proofs.«171513_j24180665876586_1_alg».proof.Proof.Gen.KernelIdeal.Points
import proofs.«171513_j24180665876586_1_alg».proof.Proof.Gen.KernelIdeal.Frame
import proofs.«171513_j24180665876586_1_alg».proof.Proof.Gen.ReferenceIdeal
import proofs.«171513_j24180665876586_1_alg».proof.Proof.Gen.Pre_finite_inputs
import proofs.«171513_j24180665876586_1_alg».proof.Proof.RefRun
import proofs.«171513_j24180665876586_1_alg».proof.Proof.RefRead
import proofs.«171513_j24180665876586_1_alg».proof.Proof.RefValue
import proofs.«171513_j24180665876586_1_alg».proof.Proof.KernelBlocks
import proofs.«171513_j24180665876586_1_alg».proof.Proof.Finite
import proofs.«171513_j24180665876586_1_alg».proof.Proof.Quant
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation: there is nothing to preserve. -/
theorem preserves : Cert.preserves_Kernel_KernelIdeal := trivial

/-- On the extended reals, from memories that agree on the inputs and hold finite numbers there, both programs end with
    the same array: at (b, u, o) the sum over k of row (b, u)'s quantised entry k times W[o, k]. -/
theorem algebraic : Cert.algebraic_KernelIdeal_ReferenceIdeal := by
  intro m ρ m' ρ' hpre hagree
  refine ⟨_, Cert.KernelIdeal.Blocks.run m ρ, ?_⟩
  have hfin : ∀ (c : Dev Cert.ReferenceIdeal.nD) (i : Cert.ReferenceIdeal.S4x8192x2048.Idx),
      ∃ r : ℝ, m' ((c.tc : Thread Cert.ReferenceIdeal.nD Cert.ReferenceIdeal.τ).loc Cert.ReferenceIdeal.main_arg0) i = (r : EReal) :=
    fun c i => by
      rw [(hagree c).1]
      exact Cert.Finite.real_of_pre _ _ (hpre c) i
  refine (θ_run Cert.ReferenceIdeal.defs _ _).mono (fun _ h c => ⟨?_, (h c).2.1, (h c).2.2⟩)
    (Cert.ReferenceIdeal.RefValue.run m' ρ' hfin)
  rw [(h c).1, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
